-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg5 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x1024 .f32) (main_arg1 : FVec F S1024x2048 .f32) (main_arg2 : FVec F S2048 .f32) (main_arg3 : FVec F S2048 .f32) (main_arg4 : FVec F S2048x1024 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8192x1024 : Shape := ⟨2, ![8192, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x2048, .bf16⟩
  | .hbm, ⟨7, _⟩ => ⟨S2048x1024, .bf16⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.MlpSpec.lean ====
/-
  The layer as mathematics, one output row at a time.

  For one row `xr` of the input (1024 entries) the layer computes
    h j   = (∑ k, xr k · W1 k j) + b1 j                         (2048 pre-activations),
    s     = (∑ j, h j · h j) / 2048 + 2⁻²³                       (the mean square plus a positive constant),
    z j   = max ((h j ⊘ √s) · g j) 0                             (normalised, scaled, clipped below at zero),
    out q = (∑ j, z j · W2 j q) + b2 q                           (1024 results),
  all over the extended reals. The normalisation `h j ⊘ √s` comes in two arrangements: the product with the
  reciprocal square root, `h j · rsqrt s`, and the quotient by the square root, `h j / sqrt s`. They agree whenever
  `s` is positive — at `s = ⊤` both are `h j · 0`, at a positive real `s` both are `h j · (√s)⁻¹` — and `s` is
  always positive: a square of an extended real is never negative (`⊥ · ⊥ = ⊤`), so neither is a sum of squares nor
  its quotient by 2048, and the constant added is positive. No finiteness of the inputs is needed.
-/
import Idealize.ShloMosaic.PureOps.Ideal
import Idealize.ShloMosaic.PureOps.Ideal.Laws

noncomputable section

namespace Cert.Mlp

open Idealize.ShloMosaic

/-! ## The two float constants -/

/-- The pattern `0x45000000` denotes the real 2048. -/
theorem ofBits_2048 : Ideal.ofBits .f32 0x45000000#32 = ((2048 : ℝ) : EReal) := by
  simp [Ideal.ofBits, Ideal.ieee, -EReal.coe_mul]; norm_num

/-- The pattern `0x34000000` denotes 2⁻²³, a positive real. -/
theorem ofBits_eps : Ideal.ofBits .f32 0x34000000#32 = ((1 / 8388608 : ℝ) : EReal) := by
  simp [Ideal.ofBits, Ideal.ieee, -EReal.coe_mul]; norm_num

theorem eps_pos : (0 : EReal) < Ideal.ofBits .f32 0x34000000#32 := by
  rw [ofBits_eps]; exact EReal.coe_pos.mpr (by norm_num)

/-! ## The row function -/

/-- The pre-activations of a row. -/
def hid (xr : Fin 1024 → EReal) (W1 : Fin 1024 → Fin 2048 → EReal) (b1 : Fin 2048 → EReal) (j : Fin 2048) : EReal :=
  (∑ k : Fin 1024, xr k * W1 k j) + b1 j

/-- The mean square of 2048 values plus the positive constant. -/
def msq (h : Fin 2048 → EReal) : EReal :=
  Ideal.div (∑ j : Fin 2048, h j * h j) (Ideal.ofBits .f32 0x45000000#32) + Ideal.ofBits .f32 0x34000000#32

/-- Normalisation as a product with the reciprocal square root. -/
def normMul (h : Fin 2048 → EReal) (j : Fin 2048) : EReal := h j * Ideal.rsqrt (msq h)

/-- Normalisation as a quotient by the square root. -/
def normDiv (h : Fin 2048 → EReal) (j : Fin 2048) : EReal := Ideal.div (h j) (Ideal.sqrt (msq h))

/-- Scale, clip at zero, multiply by the second weight matrix and add the second bias. -/
def outOf (nrm g : Fin 2048 → EReal) (W2 : Fin 2048 → Fin 1024 → EReal) (b2 : Fin 1024 → EReal) (q : Fin 1024) : EReal :=
  (∑ j : Fin 2048, max (nrm j * g j) (Ideal.ofBits .f32 0x00000000#32) * W2 j q) + b2 q

/-- The row's results, normalising by the product. -/
def outMul (xr : Fin 1024 → EReal) (W1 : Fin 1024 → Fin 2048 → EReal) (b1 g : Fin 2048 → EReal)
    (W2 : Fin 2048 → Fin 1024 → EReal) (b2 : Fin 1024 → EReal) (q : Fin 1024) : EReal :=
  outOf (normMul (hid xr W1 b1)) g W2 b2 q

/-- The row's results, normalising by the quotient. -/
def outDiv (xr : Fin 1024 → EReal) (W1 : Fin 1024 → Fin 2048 → EReal) (b1 g : Fin 2048 → EReal)
    (W2 : Fin 2048 → Fin 1024 → EReal) (b2 : Fin 1024 → EReal) (q : Fin 1024) : EReal :=
  outOf (normDiv (hid xr W1 b1)) g W2 b2 q

/-! ## The law -/

/-- A square of an extended real is not negative. -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

/-- The mean square plus the constant is positive, whatever the values. -/
theorem msq_pos (h : Fin 2048 → EReal) : 0 < msq h := by
  unfold msq
  rw [ofBits_2048, Ideal.div_coe (by norm_num)]
  have h1 : (0 : EReal) ≤ ∑ j : Fin 2048, h j * h j := Finset.sum_nonneg fun j _ => mul_self_nonneg (h j)
  have h2 : (0 : EReal) ≤ (∑ j : Fin 2048, h j * h j) * ((1 / 2048 : ℝ) : EReal) :=
    mul_nonneg h1 (EReal.coe_nonneg.mpr (by norm_num))
  exact lt_of_lt_of_le eps_pos (le_add_of_nonneg_left h2)

/-- At a positive `s` the product with the reciprocal square root is the quotient by the square root. -/
theorem mul_rsqrt_eq_div_sqrt (a s : EReal) (hs : 0 < s) : a * Ideal.rsqrt s = Ideal.div a (Ideal.sqrt s) := by
  induction s using EReal.rec with
  | bot => exact absurd hs not_lt_bot
  | coe r =>
    have hr : 0 < r := EReal.coe_pos.mp hs
    have h1 : ¬ r < 0 := not_lt.mpr hr.le
    have h3 : Real.sqrt r ≠ 0 := (Real.sqrt_pos.mpr hr).ne'
    rw [Ideal.rsqrt_coe, Ideal.sqrt_coe, if_neg h1, if_neg hr.ne', if_neg h1, Ideal.div,
      if_neg (by exact_mod_cast h3), EReal.coe_inv]
  | top => rw [Ideal.rsqrt_top, Ideal.sqrt_top, Ideal.div, if_neg EReal.top_ne_zero, EReal.inv_top]

/-- The two normalisations are one function. -/
theorem normMul_eq_normDiv (h : Fin 2048 → EReal) : normMul h = normDiv h :=
  funext fun j => mul_rsqrt_eq_div_sqrt (h j) (msq h) (msq_pos h)

/-- So the two arrangements of the row's results are one function. -/
theorem outMul_eq_outDiv (xr : Fin 1024 → EReal) (W1 : Fin 1024 → Fin 2048 → EReal) (b1 g : Fin 2048 → EReal)
    (W2 : Fin 2048 → Fin 1024 → EReal) (b2 : Fin 1024 → EReal) : outMul xr W1 b1 g W2 b2 = outDiv xr W1 b1 g W2 b2 := by
  funext q
  unfold outMul outDiv
  rw [normMul_eq_normDiv]

end Cert.Mlp

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«108955_g24953759989821_cont_sun_c4_83_1_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.KernelBody.lean ====
/-
  The kernel body's arithmetic at one entry of its block.

  At a grid point the body holds a block of 512 rows of the input, both weight matrices whole and the three vectors
  as rows of shape [1, n]. Its stored value is computed in four stages, each a whole-block vector operation:
    the pre-activations  [512, 2048]  — the first matrix product into a zero accumulator plus the first bias row
                                        repeated down the rows;
    the mean squares     [512, 1]     — the lane sum of the squares, as a column, divided by 2048, plus the constant;
    the activations      [512, 2048]  — the pre-activations times the column of reciprocal square roots repeated along
                                        the rows, times the scale row repeated down the rows, clipped below at zero;
    the result           [512, 1024]  — the second matrix product into a zero accumulator plus the second bias row.
  Read at (p, q) over the extended reals (a change of float format is the identity, a matrix product into zero and a
  lane sum are plain sums) the stored value is the row function of `MlpSpec`, in its product arrangement, of row `p`
  of the input block.
-/
import proofs.«108955_g24953759989821_cont_sun_c4_83_1_alg».proof.Proof.Gen.KernelIdeal.Skeleton
import proofs.«108955_g24953759989821_cont_sun_c4_83_1_alg».proof.Proof.MlpSpec
import proofs.«108955_g24953759989821_cont_sun_c4_83_1_alg».proof.Proof.LibDotRows
import proofs.«108955_g24953759989821_cont_sun_c4_83_1_alg».proof.Proof.LibRowSum
import proofs.«108955_g24953759989821_cont_sun_c4_83_1_alg».proof.Proof.LibRowBroadcast
import Idealize.ShloMosaic.Lib.Pipeline.Value
import Idealize.ShloMosaic.Lib.ValueIdx
import Idealize.ShloMosaic.PureOps.Ideal.Laws

noncomputable section

namespace Cert.Mlp.Body

open Cert.KernelIdeal Cert.KernelIdeal.Gen Idealize.ShloMosaic Idealize.ShloMosaic.ValueIdx Cert.Mlp

/-! ## The two matrix products into a zero accumulator -/

/-- [512, 1024] · [1024, 2048] at (p, q): the sum over the 1024 shared coordinates. -/
theorem dot1_apply (l : FVec Ideal S512x1024 .bf16) (r : FVec Ideal S1024x2048 .bf16) (p : Fin 512) (q : Fin 2048) :
    matmul dot_S512x1024_S1024x2048_S512x2048_1_0_0_1_n_n none l r (constant (F := Ideal) S512x2048 .f32 0x00000000#32) (ix2 p q)
      = ∑ k : Fin 1024, l (ix2 p k) * r (ix2 k q) := by
  refine (Ideal.matmul_constant_zero_apply dot_S512x1024_S1024x2048_S512x2048_1_0_0_1_n_n none l r (ix2 p q)).trans ?_
  dot_rows dot_S512x1024_S1024x2048_S512x2048_1_0_0_1_n_n S512x1024 S1024x2048 1024

/-- [512, 2048] · [2048, 1024] at (p, q): the sum over the 2048 shared coordinates. -/
theorem dot2_apply (l : FVec Ideal S512x2048 .bf16) (r : FVec Ideal S2048x1024 .bf16) (p : Fin 512) (q : Fin 1024) :
    matmul dot_S512x2048_S2048x1024_S512x1024_1_0_0_1_n_n none l r (constant (F := Ideal) S512x1024 .f32 0x00000000#32) (ix2 p q)
      = ∑ k : Fin 2048, l (ix2 p k) * r (ix2 k q) := by
  refine (Ideal.matmul_constant_zero_apply dot_S512x2048_S2048x1024_S512x1024_1_0_0_1_n_n none l r (ix2 p q)).trans ?_
  dot_rows dot_S512x2048_S2048x1024_S512x1024_1_0_0_1_n_n S512x2048 S2048x1024 2048

/-! ## The four stages -/

/-- The block's pre-activations. -/
def pre (x0 : Vec Ideal S512x1024 .f32) (w1 : Vec Ideal S1024x2048 .bf16) (b1 : Vec Ideal S1x2048 .f32) : FVec Ideal S512x2048 .f32 :=
  addf (matmul dot_S512x1024_S1024x2048_S512x2048_1_0_0_1_n_n none (truncf .bf16 x0 bitsLt_bf16_f32)
      (shapeCast S1024x2048 w1 shapeCasts_S1024x2048_S1024x2048 : FVec Ideal S1024x2048 .bf16) (constant (F := Ideal) S512x2048 .f32 0x00000000#32))
    (broadcastTo S512x2048 (shapeCast S1x2048 b1 shapeCasts_S1x2048_S1x2048) broadcasts_S1x2048_S512x2048)

/-- Entry (p, j) of the pre-activations is the row function's pre-activation `j` of row `p`. -/
theorem pre_apply (x0 : Vec Ideal S512x1024 .f32) (w1 : Vec Ideal S1024x2048 .bf16) (b1 : Vec Ideal S1x2048 .f32)
    (p : Fin 512) (j : Fin 2048) :
    pre x0 w1 b1 (ix2 p j)
      = hid (fun k => x0 (ix2 p k)) (fun k j => w1 (ix2 k j)) (fun j => b1 (ix2 (0 : Fin 1) j)) j := by
  unfold pre hid
  rw [addf_apply, dot1_apply, Cert.RowBroadcast.broadcastTo_1b_ab_apply, shapeCast_self, shapeCast_self]
  rfl

/-- The block's mean squares plus the constant, one per row, as a column. -/
def ms (h : FVec Ideal S512x2048 .f32) : FVec Ideal S512x1 .f32 :=
  addf (divf (shapeCast S512x1 (multiReduction .add [1] S512 (mulf h h) 0x00000000#32 reduces_S512x2048_S512 (.inl rfl) rfl)
        shapeCasts_S512_S512x1)
      (broadcast S512x1 (Scalar.ofBits (F := Ideal) .f32 0x45000000#32)))
    (broadcast S512x1 (Scalar.ofBits (F := Ideal) .f32 0x34000000#32))

/-- Row `p` of the column is the mean square of row `p`'s 2048 values plus the constant. -/
theorem ms_apply (h : FVec Ideal S512x2048 .f32) (p : Fin 512) (u : Fin 1) :
    ms h (ix2 p u) = msq (fun j => h (ix2 p j)) := by
  unfold ms msq
  rw [addf_apply, divf_apply, broadcast_apply, broadcast_apply, Cert.Columns.shapeCast_a_a1_apply]
  have hs := Cert.RowSum.multiReduction_add_row (mulf h h) 0x00000000#32 reduces_S512x2048_S512 (.inl rfl) rfl p
  exact congrArg (fun s => Ideal.div s (Ideal.ofBits .f32 0x45000000#32) + Ideal.ofBits .f32 0x34000000#32) hs

/-- The block's activations. -/
def act (g : Vec Ideal S1x2048 .f32) (h : FVec Ideal S512x2048 .f32) : FVec Ideal S512x2048 .f32 :=
  maximumf (mulf (mulf h (broadcastTo S512x2048 (rsqrt (ms h)) broadcasts_S512x1_S512x2048))
      (broadcastTo S512x2048 (shapeCast S1x2048 g shapeCasts_S1x2048_S1x2048) broadcasts_S1x2048_S512x2048))
    (broadcast S512x2048 (Scalar.ofBits (F := Ideal) .f32 0x00000000#32))

/-- Entry (p, j) of the activations: row `p`'s value `j` normalised by the product, scaled, clipped at zero. -/
theorem act_apply (g : Vec Ideal S1x2048 .f32) (h : FVec Ideal S512x2048 .f32) (p : Fin 512) (j : Fin 2048) :
    act g h (ix2 p j)
      = max (normMul (fun j => h (ix2 p j)) j * g (ix2 (0 : Fin 1) j)) (Ideal.ofBits .f32 0x00000000#32) := by
  unfold act normMul
  rw [maximumf_apply, mulf_apply, mulf_apply, broadcast_apply, Cert.Columns.broadcastTo_a1_ab_apply,
    Cert.RowBroadcast.broadcastTo_1b_ab_apply, shapeCast_self]
  show max (h (ix2 p j) * Ideal.rsqrt (ms h (ix2 p (0 : Fin 1))) * g (ix2 (0 : Fin 1) j)) _ = _
  rw [ms_apply]
  rfl

/-- The block's result. -/
def res (w2 : Vec Ideal S2048x1024 .bf16) (b2 : Vec Ideal S1x1024 .f32) (z : FVec Ideal S512x2048 .f32) : FVec Ideal S512x1024 .f32 :=
  addf (matmul dot_S512x2048_S2048x1024_S512x1024_1_0_0_1_n_n none (truncf .bf16 z bitsLt_bf16_f32)
      (shapeCast S2048x1024 w2 shapeCasts_S2048x1024_S2048x1024 : FVec Ideal S2048x1024 .bf16) (constant (F := Ideal) S512x1024 .f32 0x00000000#32))
    (broadcastTo S512x1024 (shapeCast S1x1024 b2 shapeCasts_S1x1024_S1x1024) broadcasts_S1x1024_S512x1024)

/-- Entry (p, q) of the result: the activations of row `p` against column `q` of the second matrix, plus the bias. -/
theorem res_apply (w2 : Vec Ideal S2048x1024 .bf16) (b2 : Vec Ideal S1x1024 .f32) (z : FVec Ideal S512x2048 .f32)
    (p : Fin 512) (q : Fin 1024) :
    res w2 b2 z (ix2 p q) = (∑ j : Fin 2048, z (ix2 p j) * w2 (ix2 j q)) + b2 (ix2 (0 : Fin 1) q) := by
  unfold res
  rw [addf_apply, dot2_apply, Cert.RowBroadcast.broadcastTo_1b_ab_apply, shapeCast_self, shapeCast_self]
  rfl

/-! ## The stored value -/

/-- The body's stored value is the four stages composed. -/
theorem pay_eq (x0 : Vec Ideal S512x1024 .f32) (w1 : Vec Ideal S1024x2048 .bf16) (b1 g : Vec Ideal S1x2048 .f32)
    (w2 : Vec Ideal S2048x1024 .bf16) (b2 : Vec Ideal S1x1024 .f32) :
    k0_pay1 (F := Ideal) x0 w1 b1 g w2 b2 = res w2 b2 (act g (pre x0 w1 b1)) := rfl

/-- Entry (p, q) of the stored value is the row function, in its product arrangement, of row `p` of the input block. -/
theorem pay_apply (x0 : Vec Ideal S512x1024 .f32) (w1 : Vec Ideal S1024x2048 .bf16) (b1 g : Vec Ideal S1x2048 .f32)
    (w2 : Vec Ideal S2048x1024 .bf16) (b2 : Vec Ideal S1x1024 .f32) (p : Fin 512) (q : Fin 1024) :
    k0_pay1 (F := Ideal) x0 w1 b1 g w2 b2 (ix2 p q)
      = outMul (fun k => x0 (ix2 p k)) (fun k j => w1 (ix2 k j)) (fun j => b1 (ix2 (0 : Fin 1) j))
          (fun j => g (ix2 (0 : Fin 1) j)) (fun j n => w2 (ix2 j n)) (fun n => b2 (ix2 (0 : Fin 1) n)) q := by
  rw [pay_eq, res_apply]
  unfold outMul outOf
  have hh : (fun j => pre x0 w1 b1 (ix2 p j))
      = hid (fun k => x0 (ix2 p k)) (fun k j => w1 (ix2 k j)) (fun j => b1 (ix2 (0 : Fin 1) j)) :=
    funext fun j => pre_apply x0 w1 b1 p j
  refine congrArg (· + _) (Finset.sum_congr rfl fun j _ => ?_)
  rw [act_apply, hh]

end Cert.Mlp.Body

end
-- ==== Proof.MlpLayer.lean ====
/-
  The layer as one function of its six argument arrays: entry (r, q) of the [8192, 1024] result is the row function
  of `MlpSpec` (quotient arrangement) of row `r` of the input, read at `q`. Rows do not interact.
-/
import proofs.«108955_g24953759989821_cont_sun_c4_83_1_alg».proof.Proof.MlpSpec
import Idealize.ShloMosaic.Lib.ValueIdx

noncomputable section

namespace Cert.Mlp

open Idealize.ShloMosaic Idealize.ShloMosaic.ValueIdx

/-- The result array of the layer, index by index. -/
def layer (X : (⟨2, ![8192, 1024]⟩ : Shape).Idx → EReal) (W1 : (⟨2, ![1024, 2048]⟩ : Shape).Idx → EReal)
    (B1 Gm : (⟨1, ![2048]⟩ : Shape).Idx → EReal) (W2 : (⟨2, ![2048, 1024]⟩ : Shape).Idx → EReal)
    (B2 : (⟨1, ![1024]⟩ : Shape).Idx → EReal) : (⟨2, ![8192, 1024]⟩ : Shape).Idx → EReal :=
  fun i => outDiv (fun k : Fin 1024 => X (ix2 (i 0) k)) (fun (k : Fin 1024) (j : Fin 2048) => W1 (ix2 k j))
    (fun j : Fin 2048 => B1 (ix1 j)) (fun j : Fin 2048 => Gm (ix1 j)) (fun (j : Fin 2048) (n : Fin 1024) => W2 (ix2 j n))
    (fun n : Fin 1024 => B2 (ix1 n)) (i 1)

/-- Read at coordinates. -/
theorem layer_apply (X : (⟨2, ![8192, 1024]⟩ : Shape).Idx → EReal) (W1 : (⟨2, ![1024, 2048]⟩ : Shape).Idx → EReal)
    (B1 Gm : (⟨1, ![2048]⟩ : Shape).Idx → EReal) (W2 : (⟨2, ![2048, 1024]⟩ : Shape).Idx → EReal)
    (B2 : (⟨1, ![1024]⟩ : Shape).Idx → EReal) (r : Fin 8192) (q : Fin 1024) :
    layer X W1 B1 Gm W2 B2 (ix2 r q)
      = outDiv (fun k : Fin 1024 => X (ix2 r k)) (fun (k : Fin 1024) (j : Fin 2048) => W1 (ix2 k j))
          (fun j : Fin 2048 => B1 (ix1 j)) (fun j : Fin 2048 => Gm (ix1 j)) (fun (j : Fin 2048) (n : Fin 1024) => W2 (ix2 j n))
          (fun n : Fin 1024 => B2 (ix1 n)) q := rfl

end Cert.Mlp

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.KernelArr.lean ====
/-
  From the kernel's blocks to its result array.

  Before the region the host rounds the two weight matrices to a narrower float format (the identity over the
  extended reals) and reshapes the three vectors to rows [1, n]. The grid has 16 points; point `t` is handed rows
  512·t … 512·t + 511 of the input, the two weight matrices and the three rows whole, and writes back rows
  512·t … 512·t + 511 of the result. By the body's arithmetic (`KernelBody`) and the law joining the two
  arrangements (`MlpSpec`), entry (p, q) of what point `t` writes is the layer function at (512·t + p, q). The 16
  row blocks tile the 8192 rows — row `r` lies in the block of point `r / 512` — so after the run the result array
  is the layer function of the argument arrays.
-/
import proofs.«108955_g24953759989821_cont_sun_c4_83_1_alg».proof.Proof.Gen.KernelIdeal.Frame
import proofs.«108955_g24953759989821_cont_sun_c4_83_1_alg».proof.Proof.Gen.KernelIdeal.Value
import proofs.«108955_g24953759989821_cont_sun_c4_83_1_alg».proof.Proof.KernelBody
import proofs.«108955_g24953759989821_cont_sun_c4_83_1_alg».proof.Proof.MlpLayer
import proofs.«108955_g24953759989821_cont_sun_c4_83_1_alg».proof.Proof.LibRowCast
import Idealize.ShloMosaic.Lib.StableHlo.Run
import Idealize.ShloMosaic.Lib.Pipeline.Value
import Idealize.ShloMosaic.Lib.ValueIdx

noncomputable section

namespace Cert.Mlp.Arr

open Cert.KernelIdeal Cert.KernelIdeal.Gen Idealize.ShloMosaic Idealize.ShloMosaic.TcCoe Idealize.SL.Sem
open Idealize.ShloMosaic.StableHlo Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Two functions on a rank-2 index agree when they agree at every pair of coordinates. -/
theorem funext_ix2 {a b : ℕ} {α : Type} {f g : (⟨2, ![a, b]⟩ : Shape).Idx → α}
    (h : ∀ (p : Fin a) (q : Fin b), f (ix2 p q) = g (ix2 p q)) : f = g :=
  funext fun y => by rw [eq_ix2 y]; exact h _ _

/-! ## The arrays the region finds -/

/-- The first weight matrix as the region finds it: rounded to the narrower format, the same extended reals. -/
theorem V_w1 (c : Dev nD) : (V m c main_call0_v0 : S1024x2048.Idx → EReal)
    = (m ((c : Thread nD τ).loc main_arg1) : S1024x2048.Idx → EReal) := by
  dsimp only [V, hostOps0]; after_results; rfl

/-- The second weight matrix likewise. -/
theorem V_w2 (c : Dev nD) : (V m c main_call0_v1 : S2048x1024.Idx → EReal)
    = (m ((c : Thread nD τ).loc main_arg4) : S2048x1024.Idx → EReal) := by
  dsimp only [V, hostOps0]; after_results; rfl

/-- The first bias as a row. -/
theorem V_b1 (c : Dev nD) : (V m c main_call0_v2 : S1x2048.Idx → EReal)
    = shapeCast S1x2048 (m ((c : Thread nD τ).loc main_arg2) : S2048.Idx → EReal) shapeCasts_S2048_S1x2048 := by
  dsimp only [V, hostOps0]; after_results; rfl

/-- The scale as a row. -/
theorem V_g (c : Dev nD) : (V m c main_call0_v3 : S1x2048.Idx → EReal)
    = shapeCast S1x2048 (m ((c : Thread nD τ).loc main_arg3) : S2048.Idx → EReal) shapeCasts_S2048_S1x2048 := by
  dsimp only [V, hostOps0]; after_results; rfl

/-- The second bias as a row. -/
theorem V_b2 (c : Dev nD) : (V m c main_call0_v4 : S1x1024.Idx → EReal)
    = shapeCast S1x1024 (m ((c : Thread nD τ).loc main_arg5) : S1024.Idx → EReal) shapeCasts_S1024_S1x1024 := by
  dsimp only [V, hostOps0]; after_results; rfl

/-! ## The blocks at a grid point -/

/-- The index maps over the 16 points: the input's and the result's block moves down the rows with the point, every
    other window stays on its one block. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of point `t`'s block is a row of the array. -/
theorem row_lt (t : Fin cfg0.N) (p : Fin 512) : 512 * t.val + p.val < 8192 := by
  have h : cfg0.N = 16 := N_0
  have := t.isLt; have := p.isLt; omega

/-- The row of the array that row `p` of point `t`'s block is. -/
abbrev rowOf (t : Fin cfg0.N) (p : Fin 512) : Fin 8192 := ⟨512 * t.val + p.val, row_lt t p⟩

/-- The input's block at point `t` holds rows 512·t … of the input. -/
theorem blk_x (c : Dev nD) (t : Fin cfg0.N) (p : Fin 512) (k : Fin 1024) :
    (iblk m c 0 t : Vec Ideal S512x1024 .f32) (ix2 p k)
      = (m ((c : Thread nD τ).loc main_arg0) : S8192x1024.Idx → EReal) (ix2 (rowOf t p) k) := by
  unfold iblk
  rw [View.read_apply]
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 512 + 1 * p.val = 512 * t.val + p.val; omega
  | ⟨1, _⟩ => show win0_0.index t (1 : Fin 2) * 1024 + 1 * k.val = k.val; omega

/-- The first weight matrix's block is the matrix. -/
theorem blk_w1 (c : Dev nD) (t : Fin cfg0.N) (k : Fin 1024) (j : Fin 2048) :
    (iblk m c 1 t : Vec Ideal S1024x2048 .bf16) (ix2 k j)
      = (m ((c : Thread nD τ).loc main_arg1) : S1024x2048.Idx → EReal) (ix2 k j) := by
  unfold iblk
  rw [View.read_apply]
  show (V m c main_call0_v0 : S1024x2048.Idx → EReal) (((cfg0.win 1).blk t).view.emb (ix2 k j)) = _
  rw [V_w1]
  refine congrArg _ (funext fun a => Fin.ext ?_)
  obtain ⟨-, -, -, -, e0, e1, -⟩ := idx_facts t
  match a with
  | ⟨0, _⟩ => show win0_1.index t (0 : Fin 2) * 1024 + 1 * k.val = k.val; omega
  | ⟨1, _⟩ => show win0_1.index t (1 : Fin 2) * 2048 + 1 * j.val = j.val; omega

/-- The second weight matrix's block is the matrix. -/
theorem blk_w2 (c : Dev nD) (t : Fin cfg0.N) (j : Fin 2048) (n : Fin 1024) :
    (iblk m c 4 t : Vec Ideal S2048x1024 .bf16) (ix2 j n)
      = (m ((c : Thread nD τ).loc main_arg4) : S2048x1024.Idx → EReal) (ix2 j n) := by
  unfold iblk
  rw [View.read_apply]
  show (V m c main_call0_v1 : S2048x1024.Idx → EReal) (((cfg0.win 4).blk t).view.emb (ix2 j n)) = _
  rw [V_w2]
  refine congrArg _ (funext fun a => Fin.ext ?_)
  obtain ⟨-, -, -, -, -, -, -, -, -, -, e0, e1, -⟩ := idx_facts t
  match a with
  | ⟨0, _⟩ => show win0_4.index t (0 : Fin 2) * 2048 + 1 * j.val = j.val; omega
  | ⟨1, _⟩ => show win0_4.index t (1 : Fin 2) * 1024 + 1 * n.val = n.val; omega

/-- The first bias row's block reads the bias vector. -/
theorem blk_b1 (c : Dev nD) (t : Fin cfg0.N) (j : Fin 2048) :
    (iblk m c 2 t : Vec Ideal S1x2048 .f32) (ix2 (0 : Fin 1) j)
      = (m ((c : Thread nD τ).loc main_arg2) : S2048.Idx → EReal) (ix1 j) := by
  unfold iblk
  rw [View.read_apply]
  show (V m c main_call0_v2 : S1x2048.Idx → EReal) (((cfg0.win 2).blk t).view.emb (ix2 (0 : Fin 1) j)) = _
  rw [V_b1]
  refine Eq.trans (congrArg _ (funext fun a => Fin.ext ?_)) (Cert.RowCast.shapeCast_row_apply _ shapeCasts_S2048_S1x2048 (0 : Fin 1) j)
  obtain ⟨-, -, -, -, -, -, e0, e1, -⟩ := idx_facts t
  match a with
  | ⟨0, _⟩ => show win0_2.index t (0 : Fin 2) * 1 + 1 * 0 = 0; omega
  | ⟨1, _⟩ => show win0_2.index t (1 : Fin 2) * 2048 + 1 * j.val = j.val; omega

/-- The scale row's block reads the scale vector. -/
theorem blk_g (c : Dev nD) (t : Fin cfg0.N) (j : Fin 2048) :
    (iblk m c 3 t : Vec Ideal S1x2048 .f32) (ix2 (0 : Fin 1) j)
      = (m ((c : Thread nD τ).loc main_arg3) : S2048.Idx → EReal) (ix1 j) := by
  unfold iblk
  rw [View.read_apply]
  show (V m c main_call0_v3 : S1x2048.Idx → EReal) (((cfg0.win 3).blk t).view.emb (ix2 (0 : Fin 1) j)) = _
  rw [V_g]
  refine Eq.trans (congrArg _ (funext fun a => Fin.ext ?_)) (Cert.RowCast.shapeCast_row_apply _ shapeCasts_S2048_S1x2048 (0 : Fin 1) j)
  obtain ⟨-, -, -, -, -, -, -, -, e0, e1, -⟩ := idx_facts t
  match a with
  | ⟨0, _⟩ => show win0_3.index t (0 : Fin 2) * 1 + 1 * 0 = 0; omega
  | ⟨1, _⟩ => show win0_3.index t (1 : Fin 2) * 2048 + 1 * j.val = j.val; omega

/-- The second bias row's block reads the bias vector. -/
theorem blk_b2 (c : Dev nD) (t : Fin cfg0.N) (n : Fin 1024) :
    (iblk m c 5 t : Vec Ideal S1x1024 .f32) (ix2 (0 : Fin 1) n)
      = (m ((c : Thread nD τ).loc main_arg5) : S1024.Idx → EReal) (ix1 n) := by
  unfold iblk
  rw [View.read_apply]
  show (V m c main_call0_v4 : S1x1024.Idx → EReal) (((cfg0.win 5).blk t).view.emb (ix2 (0 : Fin 1) n)) = _
  rw [V_b2]
  refine Eq.trans (congrArg _ (funext fun a => Fin.ext ?_)) (Cert.RowCast.shapeCast_row_apply _ shapeCasts_S1024_S1x1024 (0 : Fin 1) n)
  obtain ⟨-, -, -, -, -, -, -, -, -, -, -, -, e0, e1⟩ := idx_facts t
  match a with
  | ⟨0, _⟩ => show win0_5.index t (0 : Fin 2) * 1 + 1 * 0 = 0; omega
  | ⟨1, _⟩ => show win0_5.index t (1 : Fin 2) * 1024 + 1 * n.val = n.val; omega

/-! ## What a point writes back -/

/-- The body's stored value at (p, q), for blocks that read the arrays as stated, is the layer function at (r, q). -/
theorem block_entry (x0 : Vec Ideal S512x1024 .f32) (w1 : Vec Ideal S1024x2048 .bf16) (b1 g : Vec Ideal S1x2048 .f32)
    (w2 : Vec Ideal S2048x1024 .bf16) (b2 : Vec Ideal S1x1024 .f32)
    (X : S8192x1024.Idx → EReal) (W1 : S1024x2048.Idx → EReal) (B1 Gm : S2048.Idx → EReal) (W2 : S2048x1024.Idx → EReal)
    (B2 : S1024.Idx → EReal) (r : Fin 8192) (p : Fin 512) (q : Fin 1024)
    (h0 : ∀ k : Fin 1024, x0 (ix2 p k) = X (ix2 r k))
    (h1 : ∀ (k : Fin 1024) (j : Fin 2048), w1 (ix2 k j) = W1 (ix2 k j))
    (h2 : ∀ j : Fin 2048, b1 (ix2 (0 : Fin 1) j) = B1 (ix1 j))
    (h3 : ∀ j : Fin 2048, g (ix2 (0 : Fin 1) j) = Gm (ix1 j))
    (h4 : ∀ (j : Fin 2048) (n : Fin 1024), w2 (ix2 j n) = W2 (ix2 j n))
    (h5 : ∀ n : Fin 1024, b2 (ix2 (0 : Fin 1) n) = B2 (ix1 n)) :
    k0_pay1 (F := Ideal) x0 w1 b1 g w2 b2 (ix2 p q) = layer X W1 B1 Gm W2 B2 (ix2 r q) := by
  rw [Cert.Mlp.Body.pay_apply, outMul_eq_outDiv, layer_apply]
  simp only [h0, h1, h2, h3, h4, h5]

/-- The result array: the layer function of the six argument arrays as launched. -/
abbrev result (c : Dev nD) : Buf (Elt Ideal) ((c : Thread nD τ).loc main_v0) :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The index of the array that entry (p, q) of point `t`'s result block is. -/
theorem emb_out (t : Fin cfg0.N) (p : Fin 512) (q : Fin 1024) :
    ((cfg0.win 6).blk t).view.emb (ix2 p q) = (ix2 (rowOf t p) q : S8192x1024.Idx) := by
  refine funext fun a => Fin.ext ?_
  obtain ⟨-, -, e0, e1, -⟩ := idx_facts t
  match a with
  | ⟨0, _⟩ => show win0_6.index t (0 : Fin 2) * 512 + 1 * p.val = 512 * t.val + p.val; omega
  | ⟨1, _⟩ => show win0_6.index t (1 : Fin 2) * 1024 + 1 * q.val = q.val; omega

/-- What point `t` writes back is block `t` of the layer function. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S512x1024) hz, View.ld_unit_zero (S := S1024x2048) hz, View.ld_unit_zero (S := S1x2048) hz,
    View.ld_unit_zero (S := S2048x1024) hz, View.ld_unit_zero (S := S1x1024) hz]
  refine funext_ix2 (a := 512) (b := 1024) fun p q => ?_
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  rw [emb_out]
  exact block_entry (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (rowOf t p) p q (blk_x m c t p) (blk_w1 m c t) (blk_b1 m c t) (blk_g m c t) (blk_w2 m c t) (blk_b2 m c t)

/-! ## The cover and the final array -/

/-- An index of the result array is in point `t`'s block iff each coordinate is in the block's range on its axis. -/
theorem mem_blk (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v0).slice (win0_6.rect t)).set ↔ _
  rw [View.set_slice_whole, Rect.mem_set_unit]
  exact Iff.rfl

/-- Every index of the result array is in the block of the point its row falls to. -/
theorem cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have ht : (i 0).val / 512 < cfg0.N := by rw [show cfg0.N = 16 from N_0]; omega
  refine ⟨⟨(i 0).val / 512, ht⟩, flush0_6 _, ?_⟩
  rw [mem_blk]
  obtain ⟨-, -, e0, e1, -⟩ := idx_facts ⟨(i 0).val / 512, ht⟩
  have e0' : win0_6.index ⟨(i 0).val / 512, ht⟩ (0 : Fin 2) = (i 0).val / 512 := e0
  intro a
  match a with
  | ⟨0, _⟩ =>
    show win0_6.index ⟨(i 0).val / 512, ht⟩ (0 : Fin 2) * 512 ≤ (i 0).val
      ∧ (i 0).val < win0_6.index ⟨(i 0).val / 512, ht⟩ (0 : Fin 2) * 512 + 512
    omega
  | ⟨1, _⟩ =>
    show win0_6.index ⟨(i 0).val / 512, ht⟩ (1 : Fin 2) * 1024 ≤ (i 1).val
      ∧ (i 1).val < win0_6.index ⟨(i 0).val / 512, ht⟩ (1 : Fin 2) * 1024 + 1024
    omega

/-- After the run the result array is the layer function of the argument arrays. -/
theorem final (c : Dev nD) : (dats m 0 c).arrAt 6 cfg0.N = result m c :=
  (dats m 0 c).arrAt_eq_of_cover 6 (result m c) (fun t _ => flushed_eq m c t) cover

/-! ## The run -/

/-- The kernel's run: the result array ends at the layer function, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Mlp.Arr

end
-- ==== Proof.RefRead.lean ====
/-
  The reference program's result, read at an index, is the layer function.

  The reference computes the layer on whole arrays with host operations: a matrix product, broadcasts of the bias and
  scale vectors, a sum of squares along the second axis started from zero, a quotient by 2048, the added constant, a
  square root, a quotient of the pre-activations by the broadcast root, the scale, a maximum with zero, the second
  matrix product and the second bias. Read one operation at a time at entry (r, q), every broadcast reads the entry
  of its operand in row `r` or column `j`, the products and the sum of squares are plain sums over the extended
  reals, and the whole is the row function (quotient arrangement) of row `r` at `q`.
-/
import proofs.«108955_g24953759989821_cont_sun_c4_83_1_alg».proof.Proof.Gen.ReferenceIdeal.Read
import proofs.«108955_g24953759989821_cont_sun_c4_83_1_alg».proof.Proof.MlpLayer

noncomputable section

namespace Cert.Mlp.Ref

open Cert.ReferenceIdeal Cert.ReferenceIdeal.Read Idealize.ShloMosaic Idealize.ShloMosaic.ValueIdx Cert.Mlp

/-- The pre-activation at (r, j): the product's sum over the 1024 shared coordinates plus the bias entry `j`. -/
theorem hid_apply (x0 : (⟨S8192x1024, .f32⟩ : BufTy).Contents (Elt Ideal)) (x1 : (⟨S1024x2048, .f32⟩ : BufTy).Contents (Elt Ideal))
    (x2 : (⟨S2048, .f32⟩ : BufTy).Contents (Elt Ideal)) (r : Fin 8192) (j : Fin 2048) :
    val_main_v3 (F := Ideal) x0 x1 x2 (ix2 r j)
      = hid (fun k : Fin 1024 => x0 (ix2 r k)) (fun (k : Fin 1024) (j : Fin 2048) => x1 (ix2 k j)) (fun j : Fin 2048 => x2 (ix1 j)) j := by
  rw [val_main_v3_apply, val_main_v0_apply, val_main_v2_apply, val_main_v1_apply]
  have e1 : ∀ k : Fin 1024, lidx_main_v0 (ix2 r j) k = ix2 r k := fun k =>
    funext fun a => Fin.ext (by match a with | ⟨0, _⟩ => rfl | ⟨1, _⟩ => rfl)
  have e2 : ∀ k : Fin 1024, ridx_main_v0 (ix2 r j) k = ix2 k j := fun k =>
    funext fun a => Fin.ext (by match a with | ⟨0, _⟩ => rfl | ⟨1, _⟩ => rfl)
  have e3 : idx_main_v1 (idx_main_v2 (ix2 r j)) = ix1 j :=
    funext fun a => Fin.ext (by match a with | ⟨0, _⟩ => rfl)
  simp only [e1, e2, e3]
  rfl

/-- The mean square plus the constant at row `r`. -/
theorem msq_apply (x0 : (⟨S8192x1024, .f32⟩ : BufTy).Contents (Elt Ideal)) (x1 : (⟨S1024x2048, .f32⟩ : BufTy).Contents (Elt Ideal))
    (x2 : (⟨S2048, .f32⟩ : BufTy).Contents (Elt Ideal)) (r : Fin 8192) (u : Fin 1) :
    val_main_v10 (F := Ideal) x0 x1 x2 (ix2 r u)
      = msq (hid (fun k : Fin 1024 => x0 (ix2 r k)) (fun (k : Fin 1024) (j : Fin 2048) => x1 (ix2 k j)) (fun j : Fin 2048 => x2 (ix1 j))) := by
  rw [val_main_v10_apply, val_main_v8_apply, val_main_v6_apply, val_main_v5_apply, val_main_v7_apply, val_main_v9_apply,
    val_main_cst_0_apply, val_main_cst_1_apply, val_main_cst_apply]
  have e : ∀ k : Fin 2048, idx_main_v5 (idx_main_v6 (ix2 r u)) k = ix2 r k := fun k =>
    funext fun a => Fin.ext (by match a with | ⟨0, _⟩ => rfl | ⟨1, _⟩ => rfl)
  simp only [e, val_main_v4_apply, hid_apply]
  unfold msq
  simp only [Ideal.ofBits_def, Ideal.addf_def, Ideal.hostDivf_def, Ideal.mulf_def, Ideal.ofBits_zero_f32, zero_add]

/-- The result at (r, q) is the row function of row `r` at `q`. -/
theorem out_apply (x0 : (⟨S8192x1024, .f32⟩ : BufTy).Contents (Elt Ideal)) (x1 : (⟨S1024x2048, .f32⟩ : BufTy).Contents (Elt Ideal))
    (x2 x3 : (⟨S2048, .f32⟩ : BufTy).Contents (Elt Ideal)) (x4 : (⟨S2048x1024, .f32⟩ : BufTy).Contents (Elt Ideal))
    (x5 : (⟨S1024, .f32⟩ : BufTy).Contents (Elt Ideal)) (r : Fin 8192) (q : Fin 1024) :
    val_main_v21 (F := Ideal) x0 x1 x2 x3 x4 x5 (ix2 r q) = layer x0 x1 x2 x3 x4 x5 (ix2 r q) := by
  rw [layer_apply, val_main_v21_apply, val_main_v18_apply, val_main_v20_apply, val_main_v19_apply]
  have e1 : ∀ k : Fin 2048, lidx_main_v18 (ix2 r q) k = ix2 r k := fun k =>
    funext fun a => Fin.ext (by match a with | ⟨0, _⟩ => rfl | ⟨1, _⟩ => rfl)
  have e2 : ∀ k : Fin 2048, ridx_main_v18 (ix2 r q) k = ix2 k q := fun k =>
    funext fun a => Fin.ext (by match a with | ⟨0, _⟩ => rfl | ⟨1, _⟩ => rfl)
  have e3 : idx_main_v19 (idx_main_v20 (ix2 r q)) = ix1 q :=
    funext fun a => Fin.ext (by match a with | ⟨0, _⟩ => rfl)
  have e4 : ∀ k : Fin 2048, idx_main_v12 (ix2 r k) = ix2 r (0 : Fin 1) := fun k =>
    funext fun a => Fin.ext (by match a with | ⟨0, _⟩ => rfl | ⟨1, _⟩ => rfl)
  have e5 : ∀ k : Fin 2048, idx_main_v14 (idx_main_v15 (ix2 r k)) = ix1 k := fun k =>
    funext fun a => Fin.ext (by match a with | ⟨0, _⟩ => rfl)
  simp only [e1, e2, e3, val_main_v17_apply, val_main_v16_apply, val_main_v13_apply, val_main_v12_apply, val_main_v11_apply,
    val_main_v15_apply, val_main_v14_apply, val_main_call0_v0_apply, val_main_call0_cst_apply, e4, e5, hid_apply, msq_apply]
  rfl

/-- The reference's result array is the layer function of its argument arrays. -/
theorem result_eq (x0 : (⟨S8192x1024, .f32⟩ : BufTy).Contents (Elt Ideal)) (x1 : (⟨S1024x2048, .f32⟩ : BufTy).Contents (Elt Ideal))
    (x2 x3 : (⟨S2048, .f32⟩ : BufTy).Contents (Elt Ideal)) (x4 : (⟨S2048x1024, .f32⟩ : BufTy).Contents (Elt Ideal))
    (x5 : (⟨S1024, .f32⟩ : BufTy).Contents (Elt Ideal)) :
    val_main_v21 (F := Ideal) x0 x1 x2 x3 x4 x5 = layer x0 x1 x2 x3 x4 x5 := by
  funext i
  obtain ⟨r, q, rfl⟩ : ∃ (r : Fin 8192) (q : Fin 1024), i = ix2 r q := ⟨i 0, i 1, eq_ix2 i⟩
  exact out_apply x0 x1 x2 x3 x4 x5 r q

end Cert.Mlp.Ref

end
-- ==== Proof.lean ====
/-
  The fused layer  out = relu(rmsnorm(x · W1 + b1) · g) · W2 + b2  against its array-level reference, over the
  extended reals.

  Rows of the input do not interact. For one row both programs compute 2048 pre-activations h (a product with W1 plus
  b1), their mean square plus the constant 2⁻²³, call it s, the activations max((h ⊘ √s) · g, 0), and 1024 results (a
  product with W2 plus b2). Over the extended reals a change of float format is the identity and every sum is exact,
  so the kernel's two matrix products into zero accumulators and its lane sum are the reference's products and its
  sum started from zero, and its 16 row blocks of 512 rows tile the 8192 rows. The one difference is the
  normalisation: the kernel multiplies h by the reciprocal square root of s, the reference divides h by the square
  root of s. These agree for every positive s, infinite included, and s is positive whatever the inputs are, because
  a square of an extended real is never negative and the constant is positive (`MlpSpec`). The precondition is
  therefore not used.

  The parts: `MlpSpec` (the row function in both arrangements and the law), `MlpLayer` (the result array as one
  function of the six argument arrays), `RefRead` (the reference's result is that function), `KernelBody` (the
  kernel body's stored value at an entry of its block), `KernelArr` (from the 16 blocks to the result array, and the
  kernel's run). The three frames are the generated ones; the idealization rewrote no operation, so the second-last
  conjunct is `True`.
-/
import proofs.«108955_g24953759989821_cont_sun_c4_83_1_alg».proof.Defs
import proofs.«108955_g24953759989821_cont_sun_c4_83_1_alg».proof.Proof.Gen.Kernel
import proofs.«108955_g24953759989821_cont_sun_c4_83_1_alg».proof.Proof.Gen.Kernel.Skeleton
import proofs.«108955_g24953759989821_cont_sun_c4_83_1_alg».proof.Proof.Gen.Kernel.Launch
import proofs.«108955_g24953759989821_cont_sun_c4_83_1_alg».proof.Proof.Gen.Kernel.Points
import proofs.«108955_g24953759989821_cont_sun_c4_83_1_alg».proof.Proof.Gen.Kernel.Frame
import proofs.«108955_g24953759989821_cont_sun_c4_83_1_alg».proof.Proof.Gen.KernelIdeal
import proofs.«108955_g24953759989821_cont_sun_c4_83_1_alg».proof.Proof.Gen.KernelIdeal.Skeleton
import proofs.«108955_g24953759989821_cont_sun_c4_83_1_alg».proof.Proof.Gen.KernelIdeal.Launch
import proofs.«108955_g24953759989821_cont_sun_c4_83_1_alg».proof.Proof.Gen.KernelIdeal.Points
import proofs.«108955_g24953759989821_cont_sun_c4_83_1_alg».proof.Proof.Gen.KernelIdeal.Frame
import proofs.«108955_g24953759989821_cont_sun_c4_83_1_alg».proof.Proof.Gen.ReferenceIdeal
import proofs.«108955_g24953759989821_cont_sun_c4_83_1_alg».proof.Proof.Gen.Pre_finite_inputs
import proofs.«108955_g24953759989821_cont_sun_c4_83_1_alg».proof.Proof.Gen.KernelIdeal.Value
import proofs.«108955_g24953759989821_cont_sun_c4_83_1_alg».proof.Proof.Gen.ReferenceIdeal.Run
import proofs.«108955_g24953759989821_cont_sun_c4_83_1_alg».proof.Proof.Gen.ReferenceIdeal.Read
import proofs.«108955_g24953759989821_cont_sun_c4_83_1_alg».proof.Proof.KernelArr
import proofs.«108955_g24953759989821_cont_sun_c4_83_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the layer function of those arguments in
    their result array: the kernel by its blocks (`KernelArr.run`), the reference by its operations read at an index
    (`RefRead.result_eq`). -/
theorem algebraic : Cert.algebraic_KernelIdeal_ReferenceIdeal := by
  intro m ρ m' ρ' _ hagree
  refine ⟨fun c => Cert.Mlp.Arr.result m c, Cert.Mlp.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v21_eq, Cert.Mlp.Ref.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
